-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S8192x12 : Shape := ⟨2, ![8192, 12]⟩
abbrev S256x4096 : Shape := ⟨2, ![256, 4096]⟩
abbrev S256x12 : Shape := ⟨2, ![256, 12]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x12, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x12, .f32⟩
  | .local _ .vmem, ⟨5, _⟩ => ⟨S256x12, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  concatenates_S256x1_S256x1_S256x1_S256x1_S256x1_S256x1_S256x1_S256x1_S256x1_S256x1_S256x1_S256x1_S256x12_d1 : Shape.Concatenates [S256x1, S256x1, S256x1, S256x1, S256x1, S256x1, S256x1, S256x1, S256x1, S256x1, S256x1, S256x1] S256x12 1
  inb_S256x12_S256x12_0_0 : ∀ a, (![0, 0] : Fin 2 → Nat) a + S256x12.size a ≤ S256x12.size a
  h_S256x12 : 0 < S256x12.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x12.size a ≤ S8192x12.size a
  hwx0_2 : ∀ i : grid0.Coords, EltTy.bits .f32 = 32 ∨ (Rect.block (s := S8192x12) S256x12.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x12.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8192x12 : Shape := ⟨2, ![8192, 12]⟩

abbrev nBuf : Space → Nat
  | .hbm => 157
  | .vmem => 0
  | .smem => 0
  | _ => 0

abbrev hbmTy0_0 (i : Nat) : BufTy := match i % 128 with
  | 0 => ⟨S8192x4096, .f32⟩
  | 1 => ⟨S8192x4096, .f32⟩
  | 2 => ⟨S8192x4096, .f32⟩
  | 3 => ⟨S8192x4096, .f32⟩
  | 4 => ⟨S_, .f32⟩
  | 5 => ⟨S8192, .f32⟩
  | 6 => ⟨S8192x4096, .f32⟩
  | 7 => ⟨S8192x4096, .f32⟩
  | 8 => ⟨S_, .f32⟩
  | 9 => ⟨S8192, .f32⟩
  | 10 => ⟨S8192, .f32⟩
  | 11 => ⟨S8192x4096, .f32⟩
  | 12 => ⟨S8192x4096, .f32⟩
  | 13 => ⟨S8192x4096, .f32⟩
  | 14 => ⟨S_, .f32⟩
  | 15 => ⟨S8192x4096, .f32⟩
  | 16 => ⟨S8192x4096, .i1⟩
  | 17 => ⟨S_, .f32⟩
  | 18 => ⟨S8192x4096, .f32⟩
  | 19 => ⟨S8192x4096, .i1⟩
  | 20 => ⟨S_, .f32⟩
  | 21 => ⟨S_, .f32⟩
  | 22 => ⟨S8192x4096, .f32⟩
  | 23 => ⟨S8192x4096, .f32⟩
  | 24 => ⟨S8192x4096, .f32⟩
  | 25 => ⟨S_, .f32⟩
  | 26 => ⟨S_, .f32⟩
  | 27 => ⟨S8192x4096, .f32⟩
  | 28 => ⟨S8192x4096, .f32⟩
  | 29 => ⟨S_, .f32⟩
  | 30 => ⟨S8192, .f32⟩
  | 31 => ⟨S_, .f32⟩
  | 32 => ⟨S8192, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x4096, .f32⟩
  | 40 => ⟨S8192x4096, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S8192x4096, .f32⟩
  | 48 => ⟨S8192x4096, .f32⟩
  | 49 => ⟨S8192x4096, .f32⟩
  | 50 => ⟨S_, .f32⟩
  | 51 => ⟨S8192, .f32⟩
  | 52 => ⟨S8192x4096, .f32⟩
  | 53 => ⟨S_, .f32⟩
  | 54 => ⟨S8192, .f32⟩
  | 55 => ⟨S8192, .f32⟩
  | 56 => ⟨S8192x4096, .f32⟩
  | 57 => ⟨S_, .f32⟩
  | 58 => ⟨S8192, .f32⟩
  | 59 => ⟨S8192, .f32⟩
  | 60 => ⟨S8192, .f32⟩
  | 61 => ⟨S8192, .f32⟩
  | 62 => ⟨S_, .f32⟩
  | 63 => ⟨S8192, .f32⟩
  | 64 => ⟨S8192, .f32⟩
  | 65 => ⟨S8192x4096, .f32⟩
  | 66 => ⟨S_, .f32⟩
  | 67 => ⟨S8192, .f32⟩
  | 68 => ⟨S8192x4096, .f32⟩
  | 69 => ⟨S_, .f32⟩
  | 70 => ⟨S8192, .f32⟩
  | 71 => ⟨S8192, .f32⟩
  | 72 => ⟨S8192x4096, .f32⟩
  | 73 => ⟨S_, .f32⟩
  | 74 => ⟨S8192, .f32⟩
  | 75 => ⟨S8192, .f32⟩
  | 76 => ⟨S8192, .f32⟩
  | 77 => ⟨S8192, .f32⟩
  | 78 => ⟨S_, .f32⟩
  | 79 => ⟨S8192, .f32⟩
  | 80 => ⟨S8192, .f32⟩
  | 81 => ⟨S8192x4096, .f32⟩
  | 82 => ⟨S_, .f32⟩
  | 83 => ⟨S8192, .f32⟩
  | 84 => ⟨S_, .f32⟩
  | 85 => ⟨S8192x4096, .f32⟩
  | 86 => ⟨S8192x4096, .f32⟩
  | 87 => ⟨S8192x4096, .f32⟩
  | 88 => ⟨S_, .f32⟩
  | 89 => ⟨S8192, .f32⟩
  | 90 => ⟨S_, .f32⟩
  | 91 => ⟨S8192x4096, .f32⟩
  | 92 => ⟨S8192x4096, .f32⟩
  | 93 => ⟨S8192x4096, .f32⟩
  | 94 => ⟨S_, .f32⟩
  | 95 => ⟨S8192, .f32⟩
  | 96 => ⟨S_, .f32⟩
  | 97 => ⟨S8192x4096, .f32⟩
  | 98 => ⟨S8192x4096, .f32⟩
  | 99 => ⟨S_, .f32⟩
  | 100 => ⟨S8192x4096, .f32⟩
  | 101 => ⟨S8192x4096, .f32⟩
  | 102 => ⟨S8192x4096, .f32⟩
  | 103 => ⟨S_, .f32⟩
  | 104 => ⟨S8192, .f32⟩
  | 105 => ⟨S8192, .f32⟩
  | 106 => ⟨S_, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .i1⟩
  | 118 => ⟨S_, .f32⟩
  | 119 => ⟨S8192, .f32⟩
  | 120 => ⟨S8192, .f32⟩
  | 121 => ⟨S_, .f32⟩
  | 122 => ⟨S8192, .f32⟩
  | 123 => ⟨S8192, .i1⟩
  | 124 => ⟨S_, .f32⟩
  | 125 => ⟨S_, .f32⟩
  | 126 => ⟨S8192, .f32⟩
  | 127 => ⟨S8192, .f32⟩
  | _ => ⟨S8192x4096, .f32⟩

abbrev hbmTy0_1 (i : Nat) : BufTy := match i % 128 with
  | 0 => ⟨S8192, .f32⟩
  | 1 => ⟨S_, .f32⟩
  | 2 => ⟨S_, .f32⟩
  | 3 => ⟨S8192, .f32⟩
  | 4 => ⟨S8192, .f32⟩
  | 5 => ⟨S8192x4096, .f32⟩
  | 6 => ⟨S_, .f32⟩
  | 7 => ⟨S8192, .f32⟩
  | 8 => ⟨S8192, .f32⟩
  | 9 => ⟨S8192x4096, .i1⟩
  | 10 => ⟨S8192x4096, .f32⟩
  | 11 => ⟨S_, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192x1, .f32⟩
  | 18 => ⟨S8192x1, .f32⟩
  | 19 => ⟨S8192x1, .f32⟩
  | 20 => ⟨S8192x1, .f32⟩
  | 21 => ⟨S8192x1, .f32⟩
  | 22 => ⟨S8192x1, .f32⟩
  | 23 => ⟨S8192x1, .f32⟩
  | 24 => ⟨S8192x1, .f32⟩
  | 25 => ⟨S8192x1, .f32⟩
  | 26 => ⟨S8192x1, .f32⟩
  | 27 => ⟨S8192x1, .f32⟩
  | 28 => ⟨S8192x12, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_v33 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_call4_v0 : Ref sig .tc := ⟨.hbm, 68, rfl⟩
abbrev main_call4_cst : Ref sig .tc := ⟨.hbm, 69, rfl⟩
abbrev main_call4_v1 : Ref sig .tc := ⟨.hbm, 70, rfl⟩
abbrev main_v41 : Ref sig .tc := ⟨.hbm, 71, rfl⟩
abbrev main_call5_v0 : Ref sig .tc := ⟨.hbm, 72, rfl⟩
abbrev main_call5_cst : Ref sig .tc := ⟨.hbm, 73, rfl⟩
abbrev main_call5_v1 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_cst_16 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_17 : Ref sig .tc := ⟨.hbm, 88, rfl⟩
abbrev main_v52 : Ref sig .tc := ⟨.hbm, 89, rfl⟩
abbrev main_cst_18 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_19 : Ref sig .tc := ⟨.hbm, 94, rfl⟩
abbrev main_v56 : Ref sig .tc := ⟨.hbm, 95, rfl⟩
abbrev main_cst_20 : Ref sig .tc := ⟨.hbm, 96, rfl⟩
abbrev main_v57 : Ref sig .tc := ⟨.hbm, 97, rfl⟩
abbrev main_v58 : Ref sig .tc := ⟨.hbm, 98, rfl⟩
abbrev main_cst_21 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_22 : Ref sig .tc := ⟨.hbm, 103, rfl⟩
abbrev main_v62 : Ref sig .tc := ⟨.hbm, 104, rfl⟩
abbrev main_v63 : Ref sig .tc := ⟨.hbm, 105, rfl⟩
abbrev main_cst_23 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_24 : Ref sig .tc := ⟨.hbm, 115, rfl⟩
abbrev main_v72 : Ref sig .tc := ⟨.hbm, 116, rfl⟩
abbrev main_v73 : Ref sig .tc := ⟨.hbm, 117, rfl⟩
abbrev main_cst_25 : Ref sig .tc := ⟨.hbm, 118, rfl⟩
abbrev main_v74 : Ref sig .tc := ⟨.hbm, 119, rfl⟩
abbrev main_v75 : Ref sig .tc := ⟨.hbm, 120, rfl⟩
abbrev main_cst_26 : Ref sig .tc := ⟨.hbm, 121, rfl⟩
abbrev main_v76 : Ref sig .tc := ⟨.hbm, 122, rfl⟩
abbrev main_v77 : Ref sig .tc := ⟨.hbm, 123, rfl⟩
abbrev main_cst_27 : Ref sig .tc := ⟨.hbm, 124, rfl⟩
abbrev main_call6_v0 : Ref sig .tc := ⟨.hbm, 125, rfl⟩
abbrev main_call6_v1 : Ref sig .tc := ⟨.hbm, 126, rfl⟩
abbrev main_v78 : Ref sig .tc := ⟨.hbm, 127, rfl⟩
abbrev main_v79 : Ref sig .tc := ⟨.hbm, 128, rfl⟩
abbrev main_cst_28 : Ref sig .tc := ⟨.hbm, 129, rfl⟩
abbrev main_call7_v0 : Ref sig .tc := ⟨.hbm, 130, rfl⟩
abbrev main_call7_v1 : Ref sig .tc := ⟨.hbm, 131, rfl⟩
abbrev main_v80 : Ref sig .tc := ⟨.hbm, 132, rfl⟩
abbrev main_v81 : Ref sig .tc := ⟨.hbm, 133, rfl⟩
abbrev main_cst_29 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_30 : Ref sig .tc := ⟨.hbm, 139, rfl⟩
abbrev main_v86 : Ref sig .tc := ⟨.hbm, 140, rfl⟩
abbrev main_cst_31 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192 : S_.BroadcastsInDim S8192 (![] : Fin 0 → Fin S8192.rank)
  concatenates_S8192x1_S8192x1_S8192x1_S8192x1_S8192x1_S8192x1_S8192x1_S8192x1_S8192x1_S8192x1_S8192x1_S8192x1_S8192x12_d1 : Shape.Concatenates [S8192x1, S8192x1, S8192x1, S8192x1, S8192x1, S8192x1, S8192x1, S8192x1, S8192x1, S8192x1, S8192x1, S8192x1] S8192x12 1

variable [Facts₀]

class Facts : Prop extends Facts₀ where

variable [Facts]
-- ==== Proof.RowDist.lean ====
/-
  Twelve distances between two rows of 4096 extended reals, as one function of the rows.

  For rows `u`, `v` the twelve numbers are, in order: Bray–Curtis `∑|u-v| / ∑|u+v|`; Canberra
  `∑ |u-v| / (|u|+|v|)` (a term with `|u|+|v| = 0` counts `0`); Chebyshev `max |u-v|`; city block `∑|u-v|`;
  correlation `1 - ∑(u-ū)(v-v̄) / (√∑(u-ū)² · √∑(v-v̄)²)` with `ū = ∑u / 4096`; cosine
  `1 - ∑uv / (√∑u² · √∑v²)`; Dice `(ntf+nft) / (2·ntt+ntf+nft)`; Euclidean `√∑(u-v)²`; Hamming
  `#{u≠v} / 4096`; Minkowski (again `√∑(u-v)²`); squared Euclidean `∑(u-v)²`; Yule
  `2·ntf·nft / (ntt·nff + ntf·nft)` (`0` where `ntf·nft = 0`; the denominator read as `1` where it is `0`).
  The four counts are `ntt = ∑uv`, `ntf = ∑u(1-v)`, `nft = ∑(1-u)v`, `nff = ∑(1-u)(1-v)`.

  The counts can be computed in two ways. One keeps three row sums and combines them:
  `ntf = ∑u - ∑uv`, `nft = ∑v - ∑uv`, `nff = 4096 - ∑u - ∑v + ∑uv` (`statK`). The other sums the
  products entry by entry (`statR`). For rows of REAL numbers the two agree, because a finite sum of reals is
  linear and `∑ 1 = 4096`; with an infinite entry they need not (`∞ - ∞`), which is why the agreement
  (`statR_eq_statK`) asks for finite rows. The Hamming count differs only in how a comparison bit is turned into
  a number (widened to a word and read signed, or read unsigned): `0` or `1` either way.
-/
import Idealize.ShloMosaic.PureOps.Ideal
import Idealize.ShloMosaic.PureOps.Ideal.Laws
import Idealize.ShloMosaic.Lib.ValueIdx

noncomputable section

namespace Cert.RowDist

open Idealize.ShloMosaic

/-- A row: 4096 extended reals. -/
abbrev Row := Fin 4096 → EReal

def zero : EReal := Ideal.ofBits .f32 0x00000000#32
def one : EReal := Ideal.ofBits .f32 0x3F800000#32
def two : EReal := Ideal.ofBits .f32 0x40000000#32
def len : EReal := Ideal.ofBits .f32 0x45800000#32
def negInf : EReal := Ideal.ofBits .f32 0xFF800000#32

/-- The absolute value on the extended reals. -/
def absE (x : EReal) : EReal := max x (-x)

def sumAbsDiff (u v : Row) : EReal := ∑ k, absE (u k - v k)
def sumAbsSum (u v : Row) : EReal := ∑ k, absE (u k + v k)
def braycurtis (u v : Row) : EReal := Ideal.div (sumAbsDiff u v) (sumAbsSum u v)

/-- One Canberra term: `|x-y| / (|x|+|y|)`, and `0` when `|x|+|y|` is not positive. -/
def canberraTerm (x y : EReal) : EReal :=
  Scalar.select (Ideal.cmp .ogt (absE x + absE y) zero)
    (Ideal.div (absE (x - y)) (Scalar.select (Ideal.cmp .ogt (absE x + absE y) zero) (absE x + absE y) one)) zero
def canberra (u v : Row) : EReal := ∑ k, canberraTerm (u k) (v k)
def chebyshev (u v : Row) : EReal := (Finset.univ : Finset (Fin 4096)).fold max negInf (fun k => absE (u k - v k))
def mean (u : Row) : EReal := Ideal.div (∑ k, u k) len
def correlation (u v : Row) : EReal :=
  one - Ideal.div (∑ k, (u k - mean u) * (v k - mean v))
    (Ideal.sqrt (∑ k, (u k - mean u) * (u k - mean u)) * Ideal.sqrt (∑ k, (v k - mean v) * (v k - mean v)))
def cosine (u v : Row) : EReal :=
  one - Ideal.div (∑ k, u k * v k) (Ideal.sqrt (∑ k, u k * u k) * Ideal.sqrt (∑ k, v k * v k))
def dice (ntt ntf nft : EReal) : EReal := Ideal.div (ntf + nft) (two * ntt + ntf + nft)
def yule (ntt ntf nft nff : EReal) : EReal :=
  Scalar.select (Ideal.cmp .oeq (ntf * nft) zero) zero
    (Ideal.div (two * (ntf * nft)) (Scalar.select (Ideal.cmp .oeq (ntt * nff + ntf * nft) zero) one (ntt * nff + ntf * nft)))
def sqeuclid (u v : Row) : EReal := ∑ k, (u k - v k) * (u k - v k)
def euclid (u v : Row) : EReal := Ideal.sqrt (sqeuclid u v)

/-- The comparison bit widened to a 32-bit word and read as a signed integer. -/
def neBitK (x y : EReal) : EReal := ((((Ideal.cmp .one x y).setWidth 32).toInt : ℝ) : EReal)
/-- The comparison bit read as an unsigned integer. -/
def neBitR (x y : EReal) : EReal := (((Ideal.cmp .une x y).toNat : ℝ) : EReal)
def hammingK (u v : Row) : EReal := Ideal.div (∑ k, neBitK (u k) (v k)) len
def hammingR (u v : Row) : EReal := Ideal.div (∑ k, neBitR (u k) (v k)) len

def ntt (u v : Row) : EReal := ∑ k, u k * v k
def ntfK (u v : Row) : EReal := (∑ k, u k) - ntt u v
def nftK (u v : Row) : EReal := (∑ k, v k) - ntt u v
def nffK (u v : Row) : EReal := len - (∑ k, u k) - (∑ k, v k) + ntt u v
def ntfR (u v : Row) : EReal := ∑ k, u k * (one - v k)
def nftR (u v : Row) : EReal := ∑ k, (one - u k) * v k
def nffR (u v : Row) : EReal := ∑ k, (one - u k) * (one - v k)

/-- The twelve distances with the counts combined from three row sums. -/
def statK (u v : Row) : Fin 12 → EReal := fun n => match n with
  | ⟨0, _⟩ => braycurtis u v
  | ⟨1, _⟩ => canberra u v
  | ⟨2, _⟩ => chebyshev u v
  | ⟨3, _⟩ => sumAbsDiff u v
  | ⟨4, _⟩ => correlation u v
  | ⟨5, _⟩ => cosine u v
  | ⟨6, _⟩ => dice (ntt u v) (ntfK u v) (nftK u v)
  | ⟨7, _⟩ => euclid u v
  | ⟨8, _⟩ => hammingK u v
  | ⟨9, _⟩ => euclid u v
  | ⟨10, _⟩ => sqeuclid u v
  | ⟨11, _⟩ => yule (ntt u v) (ntfK u v) (nftK u v) (nffK u v)

/-- The twelve distances with the counts summed entry by entry. -/
def statR (u v : Row) : Fin 12 → EReal := fun n => match n with
  | ⟨0, _⟩ => braycurtis u v
  | ⟨1, _⟩ => canberra u v
  | ⟨2, _⟩ => chebyshev u v
  | ⟨3, _⟩ => sumAbsDiff u v
  | ⟨4, _⟩ => correlation u v
  | ⟨5, _⟩ => cosine u v
  | ⟨6, _⟩ => dice (ntt u v) (ntfR u v) (nftR u v)
  | ⟨7, _⟩ => euclid u v
  | ⟨8, _⟩ => hammingR u v
  | ⟨9, _⟩ => euclid u v
  | ⟨10, _⟩ => sqeuclid u v
  | ⟨11, _⟩ => yule (ntt u v) (ntfR u v) (nftR u v) (nffR u v)

/-! ## The two ways agree on rows of reals -/

theorem one_eq : one = ((1 : ℝ) : EReal) := by
  unfold one; simp [Ideal.ofBits, Ideal.ieee, -EReal.coe_mul]; norm_num

theorem len_eq : len = ((4096 : ℝ) : EReal) := by
  unfold len; simp [Ideal.ofBits, Ideal.ieee, -EReal.coe_mul]; norm_num

/-- A finite sum of reals, read in the extended reals, is the sum of the readings. -/
theorem coe_finsum {ι : Type} (s : Finset ι) (a : ι → ℝ) :
    ∑ k ∈ s, ((a k : ℝ) : EReal) = ((∑ k ∈ s, a k : ℝ) : EReal) := by
  classical
  refine Finset.induction_on s (by simp) ?_
  intro i s hi ih
  rw [Finset.sum_insert hi, Finset.sum_insert hi, ih, EReal.coe_add]

/-- The widened bit read signed and the bit read unsigned are the same number. -/
theorem neBit_eq (x y : EReal) : neBitK x y = neBitR x y := by
  have h : ∀ b : BitVec 1, (b.setWidth 32).toInt = (b.toNat : ℤ) := by decide
  unfold neBitK neBitR
  have e : Ideal.cmp .one x y = Ideal.cmp .une x y := rfl
  rw [e, h]; simp

theorem ntf_eq (a b : Fin 4096 → ℝ) :
    ntfR (fun k => (a k : EReal)) (fun k => (b k : EReal)) = ntfK (fun k => (a k : EReal)) (fun k => (b k : EReal)) := by
  unfold ntfR ntfK ntt
  simp only [one_eq, ← EReal.coe_sub, ← EReal.coe_mul, coe_finsum]
  exact congrArg _ (by simp [mul_sub, Finset.sum_sub_distrib])

theorem nft_eq (a b : Fin 4096 → ℝ) :
    nftR (fun k => (a k : EReal)) (fun k => (b k : EReal)) = nftK (fun k => (a k : EReal)) (fun k => (b k : EReal)) := by
  unfold nftR nftK ntt
  simp only [one_eq, ← EReal.coe_sub, ← EReal.coe_mul, coe_finsum]
  exact congrArg _ (by simp [sub_mul, Finset.sum_sub_distrib])

theorem nff_eq (a b : Fin 4096 → ℝ) :
    nffR (fun k => (a k : EReal)) (fun k => (b k : EReal)) = nffK (fun k => (a k : EReal)) (fun k => (b k : EReal)) := by
  unfold nffR nffK ntt
  simp only [one_eq, len_eq, ← EReal.coe_sub, ← EReal.coe_mul, ← EReal.coe_add, coe_finsum]
  refine congrArg _ ?_
  have h1 : ∀ k, (1 - a k) * (1 - b k) = 1 - a k - b k + a k * b k := fun k => by ring
  simp only [h1, Finset.sum_add_distrib, Finset.sum_sub_distrib, Finset.sum_const, Finset.card_univ, Fintype.card_fin]
  simp

/-- On rows of reals the two ways of computing the twelve distances agree. -/
theorem statR_eq_statK (u v : Row) (hu : ∀ k, ∃ x : ℝ, u k = (x : EReal)) (hv : ∀ k, ∃ x : ℝ, v k = (x : EReal)) :
    statR u v = statK u v := by
  choose a ha using hu
  choose b hb using hv
  obtain rfl : u = fun k => (a k : EReal) := funext ha
  obtain rfl : v = fun k => (b k : EReal) := funext hb
  funext n
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => show dice _ _ _ = dice _ _ _; rw [ntf_eq, nft_eq]
  | ⟨7, _⟩ => rfl
  | ⟨8, _⟩ =>
    show hammingR _ _ = hammingK _ _
    unfold hammingR hammingK
    simp only [neBit_eq]
  | ⟨9, _⟩ => rfl
  | ⟨10, _⟩ => rfl
  | ⟨11, _⟩ => show yule _ _ _ _ = yule _ _ _ _; rw [ntf_eq, nft_eq, nff_eq]

/-! ## Whole arrays: 8192 rows, twelve distances per row -/

/-- Row `r` of an array of 8192 rows of 4096 entries. -/
def rowAt (U : (⟨2, ![8192, 4096]⟩ : Shape).Idx → EReal) (r : Fin 8192) : Row := fun k => U (ValueIdx.ix2 r k)

/-- The row of an index of the result array. -/
def rowIx (i : (⟨2, ![8192, 12]⟩ : Shape).Idx) : Fin 8192 := ⟨(i 0).val, by have h : (i 0).val < 8192 := (i 0).isLt; exact h⟩

/-- The column of an index of the result array: which of the twelve distances. -/
def colIx (i : (⟨2, ![8192, 12]⟩ : Shape).Idx) : Fin 12 := ⟨(i 1).val, by have h : (i 1).val < 12 := (i 1).isLt; exact h⟩

/-- The result array, counts combined from the row sums: entry `(r, n)` is the `n`-th distance of rows `r`. -/
def wholeK (U V : (⟨2, ![8192, 4096]⟩ : Shape).Idx → EReal) : (⟨2, ![8192, 12]⟩ : Shape).Idx → EReal := fun i =>
  statK (rowAt U (rowIx i)) (rowAt V (rowIx i)) (colIx i)

/-- The result array, counts summed entry by entry. -/
def wholeR (U V : (⟨2, ![8192, 4096]⟩ : Shape).Idx → EReal) : (⟨2, ![8192, 12]⟩ : Shape).Idx → EReal := fun i =>
  statR (rowAt U (rowIx i)) (rowAt V (rowIx i)) (colIx i)

/-- On arrays of reals the two result arrays are the same. -/
theorem wholeR_eq_wholeK (U V : (⟨2, ![8192, 4096]⟩ : Shape).Idx → EReal)
    (hU : ∀ i, ∃ x : ℝ, U i = (x : EReal)) (hV : ∀ i, ∃ x : ℝ, V i = (x : EReal)) : wholeR U V = wholeK U V := by
  funext i
  exact congrFun (statR_eq_statK (rowAt U (rowIx i)) (rowAt V (rowIx i)) (fun k => hU _) (fun k => hV _)) (colIx i)

end Cert.RowDist

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«140874_j46282567581897_1_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KernelCols.lean ====
/-
  The kernel's block, column by column.

  One grid point loads a block of 256 rows of each input and stores a block of 256 rows and 12 columns. Column `n`
  of the stored block is a vector of 256 row results cast to a column, and the row result at row `p` is computed from
  row `p` of the two loaded blocks alone: a sum (or a maximum) over the row's 4096 entries of a pointwise expression,
  followed by a few scalar operations. Reading each column at `(p, 0)` therefore gives the `n`-th of the twelve
  distances of the two rows, with the four counts combined from the three row sums `∑u`, `∑v`, `∑uv`
  (`RowDist.statK`).
-/
import proofs.«140874_j46282567581897_1_alg».proof.Proof.Gen.KernelIdeal.Value
import proofs.«140874_j46282567581897_1_alg».proof.Proof.RowDist
import proofs.«140874_j46282567581897_1_alg».proof.Proof.LibRowSum

noncomputable section

namespace Cert.KernelCols

open Cert.KernelIdeal Cert.KernelIdeal.Gen Cert.KernelIdeal.Value Idealize.ShloMosaic Idealize.ShloMosaic.ValueIdx
open Cert.RowDist Cert.Columns Cert.RowSum

/-- Row `p` of a block of 256 rows. -/
def rowOf (P : Vec Ideal S256x4096 .f32) (p : Fin 256) : Row := fun k => P (ix2 p k)

/-- The sum of a block's row, with the accumulator's word spelt as the program spells it. -/
theorem add_row (src : FVec Ideal S256x4096 .f32) (h : S256x4096.Reduces [1] S256) (hφ : FTy.f32 = FTy.f32 ∨ FTy.f32 = FTy.bf16)
    (hacc : @Eq (BitVec FTy.f32.bits) 0x00000000#32 0x00000000#32) (r : Fin 256) :
    multiReduction .add [1] S256 src 0x00000000#32 h hφ hacc (ix1 r) = ∑ k : Fin 4096, src (ix2 r k) :=
  multiReduction_add_row src _ h hφ hacc r

/-- The maximum of a block's row, from `-∞`. -/
theorem max_row (src : FVec Ideal S256x4096 .f32) (h : S256x4096.Reduces [1] S256) (hφ : FTy.f32 = FTy.f32 ∨ FTy.f32 = FTy.bf16)
    (hacc : @Eq (BitVec FTy.f32.bits) 0xFF800000#32 0xFF800000#32) (r : Fin 256) :
    multiReduction .maximumf [1] S256 src 0xFF800000#32 h hφ hacc (ix1 r)
      = (Finset.univ : Finset (Fin 4096)).fold max (Ideal.ofBits .f32 0xFF800000#32) (fun k => src (ix2 r k)) :=
  multiReduction_maximumf_row src _ h hφ hacc r

variable (P0 P1 : Vec Ideal S256x4096 .f32) (p : Fin 256)

theorem col0 : Cat2_0 (F := Ideal) P0 P1 ⟨0, by decide⟩ (ix2 p (0 : Fin 1)) = statK (rowOf P0 p) (rowOf P1 p) ⟨0, by decide⟩ := by
  refine (shapeCast_a_a1_apply _ _ p 0).trans ?_
  simp only [divf, subf, addf, mulf, sqrt, select, cmpf, broadcast, k0_pay15, k0_pay24]
  repeat rw [add_row]
  rfl

theorem col1 : Cat2_0 (F := Ideal) P0 P1 ⟨1, by decide⟩ (ix2 p (0 : Fin 1)) = statK (rowOf P0 p) (rowOf P1 p) ⟨1, by decide⟩ := by
  refine (shapeCast_a_a1_apply _ _ p 0).trans ?_
  simp only [divf, subf, addf, mulf, sqrt, select, cmpf, broadcast, k0_pay15, k0_pay24]
  repeat rw [add_row]
  rfl

theorem col2 : Cat2_0 (F := Ideal) P0 P1 ⟨2, by decide⟩ (ix2 p (0 : Fin 1)) = statK (rowOf P0 p) (rowOf P1 p) ⟨2, by decide⟩ := by
  refine (shapeCast_a_a1_apply _ _ p 0).trans ?_
  rw [max_row]
  rfl

theorem col3 : Cat2_0 (F := Ideal) P0 P1 ⟨3, by decide⟩ (ix2 p (0 : Fin 1)) = statK (rowOf P0 p) (rowOf P1 p) ⟨3, by decide⟩ := by
  refine (shapeCast_a_a1_apply _ _ p 0).trans ?_
  simp only [divf, subf, addf, mulf, sqrt, select, cmpf, broadcast, k0_pay15, k0_pay24]
  repeat rw [add_row]
  rfl

theorem col4 : Cat2_0 (F := Ideal) P0 P1 ⟨4, by decide⟩ (ix2 p (0 : Fin 1)) = statK (rowOf P0 p) (rowOf P1 p) ⟨4, by decide⟩ := by
  refine (shapeCast_a_a1_apply _ _ p 0).trans ?_
  simp only [divf, subf, addf, mulf, sqrt, select, cmpf, broadcast, k0_pay15, k0_pay24]
  repeat rw [add_row]
  simp only [divf, subf, addf, mulf, broadcast, broadcastTo_a1_ab_apply, shapeCast_a_a1_apply]
  repeat rw [add_row]
  rfl

theorem col5 : Cat2_0 (F := Ideal) P0 P1 ⟨5, by decide⟩ (ix2 p (0 : Fin 1)) = statK (rowOf P0 p) (rowOf P1 p) ⟨5, by decide⟩ := by
  refine (shapeCast_a_a1_apply _ _ p 0).trans ?_
  simp only [divf, subf, addf, mulf, sqrt, select, cmpf, broadcast, k0_pay15, k0_pay24]
  repeat rw [add_row]
  rfl

theorem col6 : Cat2_0 (F := Ideal) P0 P1 ⟨6, by decide⟩ (ix2 p (0 : Fin 1)) = statK (rowOf P0 p) (rowOf P1 p) ⟨6, by decide⟩ := by
  refine (shapeCast_a_a1_apply _ _ p 0).trans ?_
  simp only [divf, subf, addf, mulf, sqrt, select, cmpf, broadcast, k0_pay15, k0_pay24]
  repeat rw [add_row]
  rfl

theorem col7 : Cat2_0 (F := Ideal) P0 P1 ⟨7, by decide⟩ (ix2 p (0 : Fin 1)) = statK (rowOf P0 p) (rowOf P1 p) ⟨7, by decide⟩ := by
  refine (shapeCast_a_a1_apply _ _ p 0).trans ?_
  simp only [divf, subf, addf, mulf, sqrt, select, cmpf, broadcast, k0_pay15, k0_pay24]
  repeat rw [add_row]
  rfl

theorem col8 : Cat2_0 (F := Ideal) P0 P1 ⟨8, by decide⟩ (ix2 p (0 : Fin 1)) = statK (rowOf P0 p) (rowOf P1 p) ⟨8, by decide⟩ := by
  refine (shapeCast_a_a1_apply _ _ p 0).trans ?_
  simp only [divf, subf, addf, mulf, sqrt, select, cmpf, broadcast, k0_pay15, k0_pay24]
  repeat rw [add_row]
  rfl

theorem col9 : Cat2_0 (F := Ideal) P0 P1 ⟨9, by decide⟩ (ix2 p (0 : Fin 1)) = statK (rowOf P0 p) (rowOf P1 p) ⟨9, by decide⟩ := by
  refine (shapeCast_a_a1_apply _ _ p 0).trans ?_
  simp only [divf, subf, addf, mulf, sqrt, select, cmpf, broadcast, k0_pay15, k0_pay24]
  repeat rw [add_row]
  rfl

theorem col10 : Cat2_0 (F := Ideal) P0 P1 ⟨10, by decide⟩ (ix2 p (0 : Fin 1)) = statK (rowOf P0 p) (rowOf P1 p) ⟨10, by decide⟩ := by
  refine (shapeCast_a_a1_apply _ _ p 0).trans ?_
  simp only [divf, subf, addf, mulf, sqrt, select, cmpf, broadcast, k0_pay15, k0_pay24]
  repeat rw [add_row]
  rfl

theorem col11 : Cat2_0 (F := Ideal) P0 P1 ⟨11, by decide⟩ (ix2 p (0 : Fin 1)) = statK (rowOf P0 p) (rowOf P1 p) ⟨11, by decide⟩ := by
  refine (shapeCast_a_a1_apply _ _ p 0).trans ?_
  simp only [divf, subf, addf, mulf, sqrt, select, cmpf, broadcast, k0_pay15, k0_pay24]
  repeat rw [add_row]
  rfl

/-- Column `n` of the stored block at row `p` is the `n`-th distance of row `p` of the two loaded blocks. -/
theorem col (n : Fin 12) : Cat2_0 (F := Ideal) P0 P1 n (ix2 p (0 : Fin 1)) = statK (rowOf P0 p) (rowOf P1 p) n :=
  match n with
  | ⟨0, _⟩ => col0 P0 P1 p | ⟨1, _⟩ => col1 P0 P1 p | ⟨2, _⟩ => col2 P0 P1 p | ⟨3, _⟩ => col3 P0 P1 p
  | ⟨4, _⟩ => col4 P0 P1 p | ⟨5, _⟩ => col5 P0 P1 p | ⟨6, _⟩ => col6 P0 P1 p | ⟨7, _⟩ => col7 P0 P1 p
  | ⟨8, _⟩ => col8 P0 P1 p | ⟨9, _⟩ => col9 P0 P1 p | ⟨10, _⟩ => col10 P0 P1 p | ⟨11, _⟩ => col11 P0 P1 p

end Cert.KernelCols

end
-- ==== Proof.KernelWhole.lean ====
/-
  From the blocks to the whole result array.

  The grid has 32 points; point `t` loads rows `256·t … 256·t+255` of both inputs (all 4096 columns) and writes
  back rows `256·t … 256·t+255` of the result (all 12 columns). Entry `(p, n)` of the block that point `t` writes is the
  `n`-th distance of row `p` of the two loaded blocks, that is of rows `256·t + p` of the input arrays: the block is the
  restriction of ONE function of the input arrays (`RowDist.wholeK`) to the block's rows. The 32 blocks cover the
  result array (row `r` lies in the block of point `r / 256`), so after the run the array holds that function.
-/
import proofs.«140874_j46282567581897_1_alg».proof.Proof.KernelCols

noncomputable section

namespace Cert.KernelWhole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.RowDist Cert.KernelCols

theorem hz : (![0, 0] : Fin 2 → Nat) = fun _ => 0 := funext fun a => by fin_cases a <;> rfl

/-- What the body leaves in the output block, at `(p, n)`: the `n`-th distance of row `p` of the two loaded blocks. -/
theorem block_apply (x0 x1 : Vec Ideal S256x4096 .f32) (p : Fin 256) (n : Fin 12) :
    out0_2 (F := Ideal) x0 x1 (ix2 p n) = statK (rowOf x0 p) (rowOf x1 p) n := by
  unfold out0_2
  rw [canon2_eq]
  simp only [View.ld_unit_zero (S := S256x4096) hz]
  show Cat2_0 x0 x1 (csel2_0 (ix2 p n)) (ix2_0 (ix2 p n)) = _
  have e1 : csel2_0 (ix2 p n) = n := Fin.ext rfl
  have e2 : ix2_0 (ix2 p n) = ix2 p (0 : Fin 1) := funext fun a => by
    match a with
    | ⟨0, _⟩ => rfl
    | ⟨1, _⟩ => rfl
  rw [e1, e2]
  exact col x0 x1 p n

/-- The row of an index of a block. -/
def prow (y : S256x12.Idx) : Fin 256 := ⟨(y 0).val, by have h : (y 0).val < 256 := (y 0).isLt; exact h⟩
/-- The column of an index of a block. -/
def pcol (y : S256x12.Idx) : Fin 12 := ⟨(y 1).val, by have h : (y 1).val < 12 := (y 1).isLt; exact h⟩

/-- The same at any index of the block. -/
theorem block_apply' (x0 x1 : Vec Ideal S256x4096 .f32) (y : S256x12.Idx) :
    out0_2 (F := Ideal) x0 x1 y = statK (rowOf x0 (prow y)) (rowOf x1 (prow y)) (pcol y) := by
  obtain ⟨p, n, rfl⟩ : ∃ (p : Fin 256) (n : Fin 12), y = ix2 p n := ⟨y 0, y 1, eq_ix2 y⟩
  exact block_apply x0 x1 p n

variable (m : (ℓ : Loc nD τ sig) → Buf (Elt Ideal) ℓ) (ρ : Dev nD → PrngReg)

/-- The printed index maps, decided over the 32 grid points: both inputs' blocks move with the output's block along the
    rows and stay at column block 0, as does the output's. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every row block is some point's. -/
theorem idx_onto : ∀ q : Fin 32, ∃ t : Fin cfg0.N, win0_2.index t = ![q.val, 0] :=
  (by decide +kernel : ∀ q : Fin 32, ∃ t : Fin grid0.N, win0_2.index t = ![q.val, 0])

/-- WHAT POINT `t` WRITES BACK is block `t` of `wholeK` of the argument arrays. -/
theorem flushed_eq (c : Dev nD) (t : Fin cfg0.N) :
    (dats m 0 c).flushed 2 t = ((cfg0.win 2).blk t).view.read (Elt Ideal) (wholeK (V m c main_arg0) (V m c main_arg1)) := by
  show (cfg0.win 2).cut (grid0.coords t) ((dats m 0 c).after 2 t) = _
  rw [after0_2]
  obtain ⟨e0, e1, e2, e3, e4, e5⟩ := idx_facts t
  funext j
  have hj0 : (j 0).val < 256 := (j 0).isLt
  have hj1 : (j 1).val < 12 := (j 1).isLt
  show out0_2 (iblk m c 0 t) (iblk m c 1 t) j = wholeK (V m c main_arg0) (V m c main_arg1) (((cfg0.win 2).blk t).view.emb j)
  refine (block_apply' (iblk m c 0 t) (iblk m c 1 t) j).trans ?_
  unfold wholeK
  have hr : ((((cfg0.win 2).blk t).view.emb j) 0).val = win0_2.index t (0 : Fin 2) * 256 + 1 * (j 0).val := rfl
  have hn : ((((cfg0.win 2).blk t).view.emb j) 1).val = win0_2.index t (1 : Fin 2) * 12 + 1 * (j 1).val := rfl
  have en : pcol j = colIx (((cfg0.win 2).blk t).view.emb j) :=
    Fin.ext (by show (j 1).val = ((((cfg0.win 2).blk t).view.emb j) 1).val; rw [hn, e4]; omega)
  have er0 : rowOf (iblk m c 0 t) (prow j) = rowAt (V m c main_arg0) (rowIx (((cfg0.win 2).blk t).view.emb j)) := by
    funext k
    show V m c main_arg0 (((cfg0.win 0).blk t).view.emb (ix2 (prow j) k)) = V m c main_arg0 _
    refine congrArg _ (funext fun a => Fin.ext ?_)
    match a with
    | ⟨0, _⟩ => show win0_0.index t (0 : Fin 2) * 256 + 1 * (j 0).val = ((((cfg0.win 2).blk t).view.emb j) 0).val; rw [hr, e0]
    | ⟨1, _⟩ => show win0_0.index t (1 : Fin 2) * 4096 + 1 * k.val = k.val; rw [e1]; omega
  have er1 : rowOf (iblk m c 1 t) (prow j) = rowAt (V m c main_arg1) (rowIx (((cfg0.win 2).blk t).view.emb j)) := by
    funext k
    show V m c main_arg1 (((cfg0.win 1).blk t).view.emb (ix2 (prow j) k)) = V m c main_arg1 _
    refine congrArg _ (funext fun a => Fin.ext ?_)
    match a with
    | ⟨0, _⟩ => show win0_1.index t (0 : Fin 2) * 256 + 1 * (j 0).val = ((((cfg0.win 2).blk t).view.emb j) 0).val; rw [hr, e2]
    | ⟨1, _⟩ => show win0_1.index t (1 : Fin 2) * 4096 + 1 * k.val = k.val; rw [e3]; omega
  rw [er0, er1, en]

/-- An index of the result array is in point `t`'s block iff each coordinate is in the block's range on its axis. -/
theorem mem_blk (t : Fin cfg0.N) (i : S8192x12.Idx) :
    i ∈ ((cfg0.win 2).blk t).view.set ↔ ∀ a : Fin 2, win0_2.index t a * S256x12.size a ≤ (i a).val ∧ (i a).val < win0_2.index t a * S256x12.size a + S256x12.size a := by
  show i ∈ ((View.whole main_v0).slice (win0_2.rect t)).set ↔ _
  rw [View.set_slice_whole, Rect.mem_set_unit]
  exact Iff.rfl

/-- Every index of the result array lies in some point's block: row `r` in the block of point `r / 256`. -/
theorem cover (i : S8192x12.Idx) : ∃ t : Fin cfg0.N, (cfg0.win 2).flush t = true ∧ i ∈ ((cfg0.win 2).blk t).view.set := by
  have hi0 : (i 0).val < 8192 := (i 0).isLt
  have hi1 : (i 1).val < 12 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 12 ≤ (i 1).val ∧ (i 1).val < win0_2.index t (1 : Fin 2) * 12 + 12; omega

/-- THE RESULT ARRAY after the run is `wholeK` of the argument arrays. -/
theorem final (c : Dev nD) : (dats m 0 c).arrAt 2 cfg0.N
    = wholeK (m ((c : Thread nD τ).loc main_arg0)) (m ((c : Thread nD τ).loc main_arg1)) :=
  (dats m 0 c).arrAt_eq_of_cover 2 (wholeK (V m c main_arg0) (V m c main_arg1)) (fun t _ => flushed_eq m c t) cover

/-- The kernel's run, read: the result array at `wholeK` of the arguments, the arguments unchanged. -/
theorem run : θ_run defs (onTc (τ := τ) (main (F := Ideal))) ⟨m, fun _ => 0, ρ⟩ fun r => ∀ c : Dev nD,
      r.2.mem ((c : Thread nD τ).loc main_v0) = wholeK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelWhole

end
-- ==== Proof.RefEvalCols.lean ====
/-
  The reference's columns after its run.

  The reference program is a straight line of 155 host operations; the last one joins twelve columns of 8192 entries
  (one per distance) into the result array, and the 154 before it compute the columns. The value of a buffer after the
  whole line is found by walking the line backwards from the buffer: an operation that does not write the buffer is
  skipped, the one that writes it applies its function to its operands' values. Here each column is walked by itself
  (`col89` … `col100`: the column's buffer after the line is the column's stage `val_main_v<n>` of the two arguments),
  and the line is split into the 154 operations and the joining one (`ops_split`, `cols_keep`).
-/
import proofs.«140874_j46282567581897_1_alg».proof.Proof.RefRead

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A line of operations followed by one more: the last operation's result of what the line leaves. -/
theorem after_concat {τ : Topo} {sig : RefSig} {Val : EltTy → Type} (l : List (HloOp τ sig Val)) (op : HloOp τ sig Val)
    (V : Valuation τ sig Val) : after (l ++ [op]) V = op.result (after l V) := by
  induction l generalizing V with
  | nil => rfl
  | cons o l ih => exact ih _

/-- The 154 operations that compute the columns. -/
def opsCols : List (HloOp τ sig (Elt F)) := (ops (F := F)).take 154

/-- The last operation: the twelve columns joined along the second axis. -/
def opJoin : HloOp τ sig (Elt F) :=
  nary ![main_v89, main_v90, main_v91, main_v92, main_v93, main_v94, main_v95, main_v96, main_v97, main_v98, main_v99, main_v100] main_v101 (fun u => concatenate S8192x12 1 [⟨S8192x1, u 0⟩, ⟨S8192x1, u 1⟩, ⟨S8192x1, u 2⟩, ⟨S8192x1, u 3⟩, ⟨S8192x1, u 4⟩, ⟨S8192x1, u 5⟩, ⟨S8192x1, u 6⟩, ⟨S8192x1, u 7⟩, ⟨S8192x1, u 8⟩, ⟨S8192x1, u 9⟩, ⟨S8192x1, u 10⟩, ⟨S8192x1, u 11⟩] concatenates_S8192x1_S8192x1_S8192x1_S8192x1_S8192x1_S8192x1_S8192x1_S8192x1_S8192x1_S8192x1_S8192x1_S8192x1_S8192x12_d1)

set_option maxRecDepth 65536 in
theorem ops_split : (ops (F := F)) = opsCols (F := F) ++ [opJoin (F := F)] := rfl

set_option maxHeartbeats 4000000 in
theorem col89 (V : Valuation τ sig (Elt F)) :
    after ops V (Proc.devRef .tc main_v89) = val_main_v89 (F := F) (V (Proc.devRef .tc main_arg0)) (V (Proc.devRef .tc main_arg1)) := by
  after_results_simp <;> rfl

set_option maxHeartbeats 4000000 in
theorem col90 (V : Valuation τ sig (Elt F)) :
    after ops V (Proc.devRef .tc main_v90) = val_main_v90 (F := F) (V (Proc.devRef .tc main_arg0)) (V (Proc.devRef .tc main_arg1)) := by
  after_results_simp <;> rfl

set_option maxHeartbeats 4000000 in
theorem col91 (V : Valuation τ sig (Elt F)) :
    after ops V (Proc.devRef .tc main_v91) = val_main_v91 (F := F) (V (Proc.devRef .tc main_arg0)) (V (Proc.devRef .tc main_arg1)) := by
  after_results_simp <;> rfl

set_option maxHeartbeats 4000000 in
theorem col92 (V : Valuation τ sig (Elt F)) :
    after ops V (Proc.devRef .tc main_v92) = val_main_v92 (F := F) (V (Proc.devRef .tc main_arg0)) (V (Proc.devRef .tc main_arg1)) := by
  after_results_simp <;> rfl

set_option maxHeartbeats 4000000 in
theorem col93 (V : Valuation τ sig (Elt F)) :
    after ops V (Proc.devRef .tc main_v93) = val_main_v93 (F := F) (V (Proc.devRef .tc main_arg0)) (V (Proc.devRef .tc main_arg1)) := by
  after_results_simp <;> rfl

set_option maxHeartbeats 4000000 in
theorem col94 (V : Valuation τ sig (Elt F)) :
    after ops V (Proc.devRef .tc main_v94) = val_main_v94 (F := F) (V (Proc.devRef .tc main_arg0)) (V (Proc.devRef .tc main_arg1)) := by
  after_results_simp <;> rfl

set_option maxHeartbeats 4000000 in
theorem col95 (V : Valuation τ sig (Elt F)) :
    after ops V (Proc.devRef .tc main_v95) = val_main_v95 (F := F) (V (Proc.devRef .tc main_arg0)) (V (Proc.devRef .tc main_arg1)) := by
  after_results_simp <;> rfl

set_option maxHeartbeats 4000000 in
theorem col96 (V : Valuation τ sig (Elt F)) :
    after ops V (Proc.devRef .tc main_v96) = val_main_v96 (F := F) (V (Proc.devRef .tc main_arg0)) (V (Proc.devRef .tc main_arg1)) := by
  after_results_simp <;> rfl

set_option maxHeartbeats 4000000 in
theorem col97 (V : Valuation τ sig (Elt F)) :
    after ops V (Proc.devRef .tc main_v97) = val_main_v97 (F := F) (V (Proc.devRef .tc main_arg0)) (V (Proc.devRef .tc main_arg1)) := by
  after_results_simp <;> rfl

set_option maxHeartbeats 4000000 in
theorem col98 (V : Valuation τ sig (Elt F)) :
    after ops V (Proc.devRef .tc main_v98) = val_main_v98 (F := F) (V (Proc.devRef .tc main_arg0)) (V (Proc.devRef .tc main_arg1)) := by
  after_results_simp <;> rfl

set_option maxHeartbeats 4000000 in
theorem col99 (V : Valuation τ sig (Elt F)) :
    after ops V (Proc.devRef .tc main_v99) = val_main_v99 (F := F) (V (Proc.devRef .tc main_arg0)) (V (Proc.devRef .tc main_arg1)) := by
  after_results_simp <;> rfl

set_option maxHeartbeats 4000000 in
theorem col100 (V : Valuation τ sig (Elt F)) :
    after ops V (Proc.devRef .tc main_v100) = val_main_v100 (F := F) (V (Proc.devRef .tc main_arg0)) (V (Proc.devRef .tc main_arg1)) := by
  after_results_simp <;> rfl

/-- A column's buffer is not written by the joining operation. -/
theorem cols_keep (V : Valuation τ sig (Elt F)) (r : Ref sig .tc) (hr : r ≠ main_v101) :
    after (opsCols (F := F)) V (Proc.devRef .tc r) = after ops V (Proc.devRef .tc r) := by
  conv_rhs => rw [ops_split, after_concat]
  exact (nary_result_ne _ _ _ _ _ _ hr).symm

end Cert.ReferenceIdeal.Eval

end
-- ==== Proof.RefEval.lean ====
/-
  The reference's run, read back.

  After the 155 host operations the result array is the join of the twelve columns. Peeling the joining operation off
  the line leaves each column's buffer after the first 154 operations, which the joining operation does not write; each
  is the column's stage of the two arguments (RefEvalCols.lean), so the result array is `val_main_v101` of the arguments
  (`result_eq`), and the run of the reference ends with the result array at that value and the arguments unchanged.
-/
import proofs.«140874_j46282567581897_1_alg».proof.Proof.RefEvalCols

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 65536 in
/-- The result array after the whole line is the join of the twelve columns' stages. -/
theorem result_eq (V : Valuation τ sig (Elt F)) :
    after ops V (Proc.devRef .tc main_v101)
      = val_main_v101 (F := F) (V (Proc.devRef .tc main_arg0)) (V (Proc.devRef .tc main_arg1)) := by
  rw [ops_split, after_concat]
  unfold opJoin
  rw [nary_result]
  show concatenate S8192x12 1 [⟨S8192x1, after (opsCols (F := F)) V (Proc.devRef .tc main_v89)⟩, ⟨S8192x1, after (opsCols (F := F)) V (Proc.devRef .tc main_v90)⟩, ⟨S8192x1, after (opsCols (F := F)) V (Proc.devRef .tc main_v91)⟩, ⟨S8192x1, after (opsCols (F := F)) V (Proc.devRef .tc main_v92)⟩, ⟨S8192x1, after (opsCols (F := F)) V (Proc.devRef .tc main_v93)⟩, ⟨S8192x1, after (opsCols (F := F)) V (Proc.devRef .tc main_v94)⟩, ⟨S8192x1, after (opsCols (F := F)) V (Proc.devRef .tc main_v95)⟩, ⟨S8192x1, after (opsCols (F := F)) V (Proc.devRef .tc main_v96)⟩, ⟨S8192x1, after (opsCols (F := F)) V (Proc.devRef .tc main_v97)⟩, ⟨S8192x1, after (opsCols (F := F)) V (Proc.devRef .tc main_v98)⟩, ⟨S8192x1, after (opsCols (F := F)) V (Proc.devRef .tc main_v99)⟩, ⟨S8192x1, after (opsCols (F := F)) V (Proc.devRef .tc main_v100)⟩] _ = _
  rw [cols_keep V main_v89 (by decide), cols_keep V main_v90 (by decide), cols_keep V main_v91 (by decide),
    cols_keep V main_v92 (by decide), cols_keep V main_v93 (by decide), cols_keep V main_v94 (by decide),
    cols_keep V main_v95 (by decide), cols_keep V main_v96 (by decide), cols_keep V main_v97 (by decide),
    cols_keep V main_v98 (by decide), cols_keep V main_v99 (by decide), cols_keep V main_v100 (by decide)]
  rw [col89, col90, col91, col92, col93, col94, col95, col96, col97, col98, col99, col100]
  rfl

/-- On every device, from any memory with zero counters: every weakly fair execution of the reference terminates with
    the result array at `val_main_v101` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101)
        = val_main_v101 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v101).trans (result_eq _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Eval

end
-- ==== Proof.RefCols.lean ====
/-
  The reference's columns, read at an entry.

  Each of the twelve columns the reference joins is a vector of 8192 row results broadcast to a column; the row result
  at row `r` is a chain of scalar operations on sums (or a maximum) over the 4096 entries of row `r` of the two
  arguments. Reading the column's stage one operation at a time turns it into that expression of `x0 (r, k)` and
  `x1 (r, k)`, which is the corresponding distance of the two rows with the counts summed entry by entry
  (`RowDist.statR`). The only work is on the indices: a sum's operand is read at the index made of the row's
  coordinate and the summation variable, which is `(r, k)`.
-/
import proofs.«140874_j46282567581897_1_alg».proof.Proof.RefRead
import proofs.«140874_j46282567581897_1_alg».proof.Proof.RowDist
import proofs.«140874_j46282567581897_1_alg».proof.Proof.LibColumns

noncomputable section

namespace Cert.RefCols

open Cert.ReferenceIdeal Cert.ReferenceIdeal.Gen Cert.ReferenceIdeal.ReadP Idealize.ShloMosaic Idealize.ShloMosaic.ValueIdx
open Cert.RowDist Cert.Columns

/-- A sum started from the zero word is the sum. -/
theorem zero_init_add (s : EReal) : Ideal.ofBits .f32 0x00000000#32 + s = s := by
  rw [Ideal.ofBits_zero_f32, zero_add]

/-- The row that an index of the vector of row results names. -/
def row1 (i : S8192.Idx) : Fin 8192 := ⟨(i 0).val, by have h : (i 0).val < 8192 := (i 0).isLt; exact h⟩

/-! The index a row sum reads its operand at: the row's coordinate and the summation variable. -/

theorem red_v2 (i : S8192.Idx) (k : Fin 4096) : idx_main_v2 i k = ix2 (row1 i) k :=
  funext fun a => Fin.ext (by match a with | ⟨0, _⟩ => rfl | ⟨1, _⟩ => rfl)
theorem red_v5 (i : S8192.Idx) (k : Fin 4096) : idx_main_v5 i k = ix2 (row1 i) k :=
  funext fun a => Fin.ext (by match a with | ⟨0, _⟩ => rfl | ⟨1, _⟩ => rfl)
theorem red_v17 (i : S8192.Idx) (k : Fin 4096) : idx_main_v17 i k = ix2 (row1 i) k :=
  funext fun a => Fin.ext (by match a with | ⟨0, _⟩ => rfl | ⟨1, _⟩ => rfl)
theorem red_v19 (i : S8192.Idx) (k : Fin 4096) : idx_main_v19 i k = ix2 (row1 i) k :=
  funext fun a => Fin.ext (by match a with | ⟨0, _⟩ => rfl | ⟨1, _⟩ => rfl)
theorem red_v25 (i : S8192.Idx) (k : Fin 4096) : idx_main_v25 i k = ix2 (row1 i) k :=
  funext fun a => Fin.ext (by match a with | ⟨0, _⟩ => rfl | ⟨1, _⟩ => rfl)
theorem red_v32 (i : S8192.Idx) (k : Fin 4096) : idx_main_v32 i k = ix2 (row1 i) k :=
  funext fun a => Fin.ext (by match a with | ⟨0, _⟩ => rfl | ⟨1, _⟩ => rfl)
theorem red_call2_v1 (i : S8192.Idx) (k : Fin 4096) : idx_main_call2_v1 i k = ix2 (row1 i) k :=
  funext fun a => Fin.ext (by match a with | ⟨0, _⟩ => rfl | ⟨1, _⟩ => rfl)
theorem red_call3_v1 (i : S8192.Idx) (k : Fin 4096) : idx_main_call3_v1 i k = ix2 (row1 i) k :=
  funext fun a => Fin.ext (by match a with | ⟨0, _⟩ => rfl | ⟨1, _⟩ => rfl)
theorem red_v40 (i : S8192.Idx) (k : Fin 4096) : idx_main_v40 i k = ix2 (row1 i) k :=
  funext fun a => Fin.ext (by match a with | ⟨0, _⟩ => rfl | ⟨1, _⟩ => rfl)
theorem red_call4_v1 (i : S8192.Idx) (k : Fin 4096) : idx_main_call4_v1 i k = ix2 (row1 i) k :=
  funext fun a => Fin.ext (by match a with | ⟨0, _⟩ => rfl | ⟨1, _⟩ => rfl)
theorem red_call5_v1 (i : S8192.Idx) (k : Fin 4096) : idx_main_call5_v1 i k = ix2 (row1 i) k :=
  funext fun a => Fin.ext (by match a with | ⟨0, _⟩ => rfl | ⟨1, _⟩ => rfl)
theorem red_v48 (i : S8192.Idx) (k : Fin 4096) : idx_main_v48 i k = ix2 (row1 i) k :=
  funext fun a => Fin.ext (by match a with | ⟨0, _⟩ => rfl | ⟨1, _⟩ => rfl)
theorem red_v52 (i : S8192.Idx) (k : Fin 4096) : idx_main_v52 i k = ix2 (row1 i) k :=
  funext fun a => Fin.ext (by match a with | ⟨0, _⟩ => rfl | ⟨1, _⟩ => rfl)
theorem red_v56 (i : S8192.Idx) (k : Fin 4096) : idx_main_v56 i k = ix2 (row1 i) k :=
  funext fun a => Fin.ext (by match a with | ⟨0, _⟩ => rfl | ⟨1, _⟩ => rfl)
theorem red_v62 (i : S8192.Idx) (k : Fin 4096) : idx_main_v62 i k = ix2 (row1 i) k :=
  funext fun a => Fin.ext (by match a with | ⟨0, _⟩ => rfl | ⟨1, _⟩ => rfl)
theorem red_v82 (i : S8192.Idx) (k : Fin 4096) : idx_main_v82 i k = ix2 (row1 i) k :=
  funext fun a => Fin.ext (by match a with | ⟨0, _⟩ => rfl | ⟨1, _⟩ => rfl)
theorem red_v86 (i : S8192.Idx) (k : Fin 4096) : idx_main_v86 i k = ix2 (row1 i) k :=
  funext fun a => Fin.ext (by match a with | ⟨0, _⟩ => rfl | ⟨1, _⟩ => rfl)

variable (x0 x1 : (⟨S8192x4096, .f32⟩ : BufTy).Contents (Elt Ideal)) (r : Fin 8192)

theorem rcol0 : val_main_v89 (F := Ideal) x0 x1 (ix2 r (0 : Fin 1)) = statR (rowAt x0 r) (rowAt x1 r) ⟨0, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol1 : val_main_v90 (F := Ideal) x0 x1 (ix2 r (0 : Fin 1)) = statR (rowAt x0 r) (rowAt x1 r) ⟨1, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol2 : val_main_v91 (F := Ideal) x0 x1 (ix2 r (0 : Fin 1)) = statR (rowAt x0 r) (rowAt x1 r) ⟨2, by decide⟩ := by
  rw [val_main_v91_apply]
  have e : idx_main_v91 (ix2 r (0 : Fin 1)) = ix1 r := funext fun a => Fin.ext (by match a with | ⟨0, _⟩ => rfl)
  rw [e]
  unfold val_main_v18 val_main_cst_6
  refine (hostReduce_maximumf_row _ _ reducesTo_S8192x4096_S8192_d1 (by decide) h_S_ r).trans ?_
  rfl

theorem rcol3 : val_main_v92 (F := Ideal) x0 x1 (ix2 r (0 : Fin 1)) = statR (rowAt x0 r) (rowAt x1 r) ⟨3, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol4 : val_main_v93 (F := Ideal) x0 x1 (ix2 r (0 : Fin 1)) = statR (rowAt x0 r) (rowAt x1 r) ⟨4, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol5 : val_main_v94 (F := Ideal) x0 x1 (ix2 r (0 : Fin 1)) = statR (rowAt x0 r) (rowAt x1 r) ⟨5, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol6 : val_main_v95 (F := Ideal) x0 x1 (ix2 r (0 : Fin 1)) = statR (rowAt x0 r) (rowAt x1 r) ⟨6, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol7 : val_main_v96 (F := Ideal) x0 x1 (ix2 r (0 : Fin 1)) = statR (rowAt x0 r) (rowAt x1 r) ⟨7, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol8 : val_main_v97 (F := Ideal) x0 x1 (ix2 r (0 : Fin 1)) = statR (rowAt x0 r) (rowAt x1 r) ⟨8, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol9 : val_main_v98 (F := Ideal) x0 x1 (ix2 r (0 : Fin 1)) = statR (rowAt x0 r) (rowAt x1 r) ⟨9, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol10 : val_main_v99 (F := Ideal) x0 x1 (ix2 r (0 : Fin 1)) = statR (rowAt x0 r) (rowAt x1 r) ⟨10, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

theorem rcol11 : val_main_v100 (F := Ideal) x0 x1 (ix2 r (0 : Fin 1)) = statR (rowAt x0 r) (rowAt x1 r) ⟨11, by decide⟩ := by
  simp only [val_main_v0_apply, val_main_v1_apply, val_main_cst_apply, val_main_v2_apply, val_main_v3_apply, val_main_v4_apply, val_main_cst_0_apply, val_main_v5_apply, val_main_v6_apply, val_main_v7_apply, val_main_v8_apply, val_main_v9_apply, val_main_cst_1_apply, val_main_v10_apply, val_main_v11_apply, val_main_cst_2_apply, val_main_v12_apply, val_main_v13_apply, val_main_cst_3_apply, val_main_call0_v0_apply, val_main_call0_v1_apply, val_main_v14_apply, val_main_v15_apply, val_main_cst_4_apply, val_main_call1_v0_apply, val_main_call1_v1_apply, val_main_v16_apply, val_main_cst_5_apply, val_main_v17_apply, val_main_cst_6_apply, val_main_cst_7_apply, val_main_v19_apply, val_main_v20_apply, val_main_cst_8_apply, val_main_v21_apply, val_main_v22_apply, val_main_v23_apply, val_main_v24_apply, val_main_cst_9_apply, val_main_v25_apply, val_main_v26_apply, val_main_cst_10_apply, val_main_v27_apply, val_main_v28_apply, val_main_v29_apply, val_main_v30_apply, val_main_v31_apply, val_main_cst_11_apply, val_main_v32_apply, val_main_call2_v0_apply, val_main_call2_cst_apply, val_main_call2_v1_apply, val_main_v33_apply, val_main_call3_v0_apply, val_main_call3_cst_apply, val_main_call3_v1_apply, val_main_v34_apply, val_main_v35_apply, val_main_v36_apply, val_main_cst_12_apply, val_main_v37_apply, val_main_v38_apply, val_main_v39_apply, val_main_cst_13_apply, val_main_v40_apply, val_main_call4_v0_apply, val_main_call4_cst_apply, val_main_call4_v1_apply, val_main_v41_apply, val_main_call5_v0_apply, val_main_call5_cst_apply, val_main_call5_v1_apply, val_main_v42_apply, val_main_v43_apply, val_main_v44_apply, val_main_cst_14_apply, val_main_v45_apply, val_main_v46_apply, val_main_v47_apply, val_main_cst_15_apply, val_main_v48_apply, val_main_cst_16_apply, val_main_v49_apply, val_main_v50_apply, val_main_v51_apply, val_main_cst_17_apply, val_main_v52_apply, val_main_cst_18_apply, val_main_v53_apply, val_main_v54_apply, val_main_v55_apply, val_main_cst_19_apply, val_main_v56_apply, val_main_cst_20_apply, val_main_v57_apply, val_main_v58_apply, val_main_cst_21_apply, val_main_v59_apply, val_main_v60_apply, val_main_v61_apply, val_main_cst_22_apply, val_main_v62_apply, val_main_v63_apply, val_main_cst_23_apply, val_main_v64_apply, val_main_v65_apply, val_main_v66_apply, val_main_v67_apply, val_main_v68_apply, val_main_v69_apply, val_main_v70_apply, val_main_v71_apply, val_main_cst_24_apply, val_main_v72_apply, val_main_v73_apply, val_main_cst_25_apply, val_main_v74_apply, val_main_v75_apply, val_main_cst_26_apply, val_main_v76_apply, val_main_v77_apply, val_main_cst_27_apply, val_main_call6_v0_apply, val_main_call6_v1_apply, val_main_v78_apply, val_main_v79_apply, val_main_cst_28_apply, val_main_call7_v0_apply, val_main_call7_v1_apply, val_main_v80_apply, val_main_v81_apply, val_main_cst_29_apply, val_main_v82_apply, val_main_v83_apply, val_main_v84_apply, val_main_v85_apply, val_main_cst_30_apply, val_main_v86_apply, val_main_cst_31_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, Ideal.ofBits_def, zero_init_add, red_v2, red_v5, red_v17, red_v19, red_v25, red_v32, red_call2_v1, red_call3_v1, red_v40, red_call4_v1, red_call5_v1, red_v48, red_v52, red_v56, red_v62, red_v82, red_v86]
  rfl

/-- The columns the reference joins, by number. -/
def refCat : Fin 12 → ((⟨S8192x1, .f32⟩ : BufTy).Contents (Elt Ideal)) := fun n => match n with
  | ⟨0, _⟩ => val_main_v89 (F := Ideal) x0 x1 | ⟨1, _⟩ => val_main_v90 (F := Ideal) x0 x1 | ⟨2, _⟩ => val_main_v91 (F := Ideal) x0 x1
  | ⟨3, _⟩ => val_main_v92 (F := Ideal) x0 x1 | ⟨4, _⟩ => val_main_v93 (F := Ideal) x0 x1 | ⟨5, _⟩ => val_main_v94 (F := Ideal) x0 x1
  | ⟨6, _⟩ => val_main_v95 (F := Ideal) x0 x1 | ⟨7, _⟩ => val_main_v96 (F := Ideal) x0 x1 | ⟨8, _⟩ => val_main_v97 (F := Ideal) x0 x1
  | ⟨9, _⟩ => val_main_v98 (F := Ideal) x0 x1 | ⟨10, _⟩ => val_main_v99 (F := Ideal) x0 x1 | ⟨11, _⟩ => val_main_v100 (F := Ideal) x0 x1

/-- Column `n` at row `r` is the `n`-th distance of rows `r` of the arguments. -/
theorem rcol (n : Fin 12) : refCat x0 x1 n (ix2 r (0 : Fin 1)) = statR (rowAt x0 r) (rowAt x1 r) n :=
  match n with
  | ⟨0, _⟩ => rcol0 x0 x1 r | ⟨1, _⟩ => rcol1 x0 x1 r | ⟨2, _⟩ => rcol2 x0 x1 r | ⟨3, _⟩ => rcol3 x0 x1 r
  | ⟨4, _⟩ => rcol4 x0 x1 r | ⟨5, _⟩ => rcol5 x0 x1 r | ⟨6, _⟩ => rcol6 x0 x1 r | ⟨7, _⟩ => rcol7 x0 x1 r
  | ⟨8, _⟩ => rcol8 x0 x1 r | ⟨9, _⟩ => rcol9 x0 x1 r | ⟨10, _⟩ => rcol10 x0 x1 r | ⟨11, _⟩ => rcol11 x0 x1 r

/-- THE REFERENCE'S RESULT as a function of its arguments: the join of the twelve columns, read at `(r, n)`, is column
    `n` at row `r`; so the result array is `wholeR` of the arguments. -/
theorem val_eq_wholeR : val_main_v101 (F := Ideal) x0 x1 = wholeR x0 x1 := by
  funext i
  obtain ⟨r, n, rfl⟩ : ∃ (r : Fin 8192) (n : Fin 12), i = ix2 r n := ⟨i 0, i 1, eq_ix2 i⟩
  have hcat : val_main_v101 (F := Ideal) x0 x1 (ix2 r n) = refCat x0 x1 n (ix2 r (0 : Fin 1)) := by
    unfold val_main_v101
    show concatenate S8192x12 1 (List.ofFn fun n : Fin 12 => (⟨S8192x1, refCat x0 x1 n⟩ : (s : Shape) × (s.Idx → _))) _ (ix2 r n) = _
    exact concatenate_ofFn_apply (t := S8192x12) (s₁ := S8192x1) (1 : Fin 2) (refCat x0 x1) _ rfl 1 rfl (ix2 r n) n
      (by show n.val / 1 = n.val; omega) (ix2 r (0 : Fin 1)) (by show 0 = n.val % 1; omega)
      (fun b hb => by match b with | ⟨0, _⟩ => rfl | ⟨1, _⟩ => exact absurd rfl hb)
  rw [hcat]
  exact rcol x0 x1 r n

end Cert.RefCols

end
-- ==== Proof.FiniteIn.lean ====
/-
  Finite inputs are real numbers.

  The precondition says, of each input array, that every entry's absolute value is below `+∞` (the conjunction over
  all entries, and over the two arrays, is one). On the extended reals `|x| < +∞` rules out `x = +∞` and `x = -∞`, so
  every entry of either array is a real number.
-/
import proofs.«140874_j46282567581897_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteIn

open Idealize.ShloMosaic Cert.Pre_finite_inputs

instance : Subsingleton S_.Idx := ⟨fun a b => funext fun d => d.elim0⟩

/-- The word of `+∞` denotes the top of the extended reals. -/
theorem top_eq : Ideal.ofBits .f32 0x7F800000#32 = ⊤ := by simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ y : ℝ, x = (y : EReal) := by
  rw [top_eq] at h
  have hlt : max x (-x) < ⊤ := by
    by_contra hn
    simp [Ideal.cmp, hn] at h
  induction x using EReal.rec with
  | bot => simp at hlt
  | coe y => exact ⟨y, rfl⟩
  | top => simp at hlt

variable [Facts]

/-- Under the precondition every entry of both input arrays is a real number. -/
theorem real_of_pre (a b : FVec Ideal S8192x4096 .f32) (h : fn (F := Ideal) a b = fun _ => 1#1) :
    (∀ i, ∃ y : ℝ, a i = (y : EReal)) ∧ (∀ i, ∃ y : ℝ, b i = (y : EReal)) := by
  have h0 := congrFun h ValueIdx.ix0
  dsimp only [fn] at h0
  obtain ⟨ha, hb⟩ := IntOp.andi_eq_one.1 h0
  refine ⟨fun i => ?_, fun i => ?_⟩
  · have e := Host.reduce_andi_all _ _ _ _ _ ha i
    exact real_of_abs_lt (a i) e
  · have e := Host.reduce_andi_all _ _ _ _ _ hb i
    exact real_of_abs_lt (b i) e

end Cert.FiniteIn

end
-- ==== Proof.lean ====
/-
  Twelve row-wise distances between two arrays of 8192 rows and 4096 columns: a kernel against its reference.

  Both programs return an array of 8192 rows and 12 columns whose entry `(r, n)` is the `n`-th of twelve distances
  between row `r` of the first argument and row `r` of the second (Bray–Curtis, Canberra, Chebyshev, city block,
  correlation, cosine, Dice, Euclidean, Hamming, Minkowski, squared Euclidean, Yule: RowDist.lean). Over the extended
  reals every distance is computed by the same exact operations in both programs, except for the four counts
  `ntt = ∑uv`, `ntf = ∑u(1-v)`, `nft = ∑(1-u)v`, `nff = ∑(1-u)(1-v)` that Dice and Yule are made of: the reference sums
  the products entry by entry, the kernel keeps `∑u`, `∑v`, `∑uv` and combines them
  (`ntf = ∑u - ∑uv`, `nft = ∑v - ∑uv`, `nff = 4096 - ∑u - ∑v + ∑uv`). The two agree because a finite sum of REAL
  numbers is linear — and this is where the precondition is used: it makes every input entry a real number
  (FiniteIn.lean), while with an infinite entry the two sides could differ (`∞ - ∞`).

  The kernel works on 32 blocks of 256 rows; each block's result is the restriction of one function of the whole
  arrays (`RowDist.wholeK`), and the blocks cover the result (KernelCols.lean, KernelWhole.lean). The reference's
  result is read one operation at a time (RefCols.lean) off its run (RefEval.lean) as `RowDist.wholeR`.
  The kernel's idealization rewrote no operation, so it preserves the kernel trivially; the three frames are the
  generated frame runs and the reference's run with its result dropped.
-/
import proofs.«140874_j46282567581897_1_alg».proof.Defs
import proofs.«140874_j46282567581897_1_alg».proof.Proof.Gen.Kernel
import proofs.«140874_j46282567581897_1_alg».proof.Proof.Gen.Kernel.Skeleton
import proofs.«140874_j46282567581897_1_alg».proof.Proof.Gen.Kernel.Launch
import proofs.«140874_j46282567581897_1_alg».proof.Proof.Gen.Kernel.Points
import proofs.«140874_j46282567581897_1_alg».proof.Proof.Gen.Kernel.Frame
import proofs.«140874_j46282567581897_1_alg».proof.Proof.Gen.KernelIdeal
import proofs.«140874_j46282567581897_1_alg».proof.Proof.Gen.KernelIdeal.Skeleton
import proofs.«140874_j46282567581897_1_alg».proof.Proof.Gen.KernelIdeal.Launch
import proofs.«140874_j46282567581897_1_alg».proof.Proof.Gen.KernelIdeal.Points
import proofs.«140874_j46282567581897_1_alg».proof.Proof.Gen.KernelIdeal.Frame
import proofs.«140874_j46282567581897_1_alg».proof.Proof.Gen.ReferenceIdeal
import proofs.«140874_j46282567581897_1_alg».proof.Proof.Gen.Pre_finite_inputs
import proofs.«140874_j46282567581897_1_alg».proof.Proof.KernelWhole
import proofs.«140874_j46282567581897_1_alg».proof.Proof.RefEval
import proofs.«140874_j46282567581897_1_alg».proof.Proof.RefCols
import proofs.«140874_j46282567581897_1_alg».proof.Proof.FiniteIn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Eval.run (F := Ideal) m ρ)

/-- The idealization rewrote no operation. -/
theorem preserves : Cert.preserves_Kernel_KernelIdeal := trivial

/-- From arguments that agree, the kernel's result array ends at `wholeK` of its arguments and the reference's at
    `wholeR` of the same arrays; on arrays of reals — the precondition — these are one array. -/
theorem algebraic : Cert.algebraic_KernelIdeal_ReferenceIdeal := by
  intro m ρ m' ρ' hpre hagree
  refine ⟨_, Cert.KernelWhole.run m ρ, ?_⟩
  refine (θ_run Cert.ReferenceIdeal.defs _ _).mono (fun _ h c => ⟨(h c).1.trans ?_, (h c).2⟩)
    (Cert.ReferenceIdeal.Eval.run (F := Ideal) m' ρ')
  rw [(hagree c).1, (hagree c).2]
  obtain ⟨hU, hV⟩ := Cert.FiniteIn.real_of_pre _ _ (hpre c)
  rw [Cert.RefCols.val_eq_wholeR]
  exact Cert.RowDist.wholeR_eq_wholeK _ _ hU hV

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
